-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S64x2048 : Shape := ⟨2, ![64, 2048]⟩
abbrev S16384x64 : Shape := ⟨2, ![16384, 64]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S64x2048 : S_.BroadcastsInDim S64x2048 (![] : Fin 0 → Fin S64x2048.rank)
  reducesTo_S64x2048_S_d0_1 : S64x2048.ReducesTo [0, 1] S_
  bcast_S_S16384x64 : S_.BroadcastsInDim S16384x64 (![] : Fin 0 → Fin S16384x64.rank)
  reducesTo_S16384x64_S_d0_1 : S16384x64.ReducesTo [0, 1] S_

variable [Facts]

def fn {F : FTy → Type} [FloatOps F] (main_arg0 : FVec F S16384x2048 .f32) (main_arg1 : FVec F S64x2048 .f32) (main_arg2 : FVec F S16384x64 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S64x2048 .f32 := Host.absf main_arg1
  let main_cst_0 : FVec F S_ .f32 := constant S_ .f32 0x7F800000#32
  let main_v5 : FVec F S64x2048 .f32 := broadcastInDim S64x2048 ![] bcast_S_S64x2048 main_cst_0
  let main_v6 : IVec S64x2048 1 := cmpf .olt main_v4 main_v5
  let main_c_1 : IVec S_ 1 := constantI S_ 1 1#1
  let main_v7 : IVec S_ 1 := (fun x v => Host.reduce IntOp.andi x v reducesTo_S64x2048_S_d0_1 h_S_) main_v6 main_c_1
  let main_v8 : IVec S_ 1 := andi main_v3 main_v7
  let main_v9 : FVec F S16384x64 .f32 := Host.absf main_arg2
  let main_cst_2 : FVec F S_ .f32 := constant S_ .f32 0x7F800000#32
  let main_v10 : FVec F S16384x64 .f32 := broadcastInDim S16384x64 ![] bcast_S_S16384x64 main_cst_2
  let main_v11 : IVec S16384x64 1 := cmpf .olt main_v9 main_v10
  let main_c_3 : IVec S_ 1 := constantI S_ 1 1#1
  let main_v12 : IVec S_ 1 := (fun x v => Host.reduce IntOp.andi x v reducesTo_S16384x64_S_d0_1 h_S_) main_v11 main_c_3
  let main_v13 : IVec S_ 1 := andi main_v8 main_v12
  main_v13
-- ==== Kernel.lean ====
abbrev S16384x2048 : Shape := ⟨2, ![16384, 2048]⟩
abbrev S64x2048 : Shape := ⟨2, ![64, 2048]⟩
abbrev S16384x64 : Shape := ⟨2, ![16384, 64]⟩
abbrev S64x16384 : Shape := ⟨2, ![64, 16384]⟩
abbrev S1024x2048 : Shape := ⟨2, ![1024, 2048]⟩
abbrev S64x1024 : Shape := ⟨2, ![64, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S64x2048, .f32⟩
  | .hbm, ⟨2, _⟩ => ⟨S16384x64, .f32⟩
  | .hbm, ⟨3, _⟩ => ⟨S64x16384, .f32⟩
  | .hbm, ⟨4, _⟩ => ⟨S64x16384, .f32⟩
  | .hbm, ⟨5, _⟩ => ⟨S16384x64, .f32⟩
  | .local _ .vmem, ⟨0, _⟩ => ⟨S1024x2048, .f32⟩
  | .local _ .vmem, ⟨1, _⟩ => ⟨S1024x2048, .f32⟩
  | .local _ .vmem, ⟨2, _⟩ => ⟨S64x2048, .f32⟩
  | .local _ .vmem, ⟨3, _⟩ => ⟨S64x16384, .f32⟩
  | .local _ .vmem, ⟨4, _⟩ => ⟨S64x1024, .f32⟩
  | .local _ .vmem, ⟨5, _⟩ => ⟨S64x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let c0_3 : Index := 0#32
  let arg0 : BitVec 32 := BitVec.ofNat 32 (i 0).val
  let c1024_i32 : BitVec 32 := 1024#32
  let v3 : BitVec 32 := Scalar.muli arg0 c1024_i32
  let v4 : Index := Scalar.indexCast v3
  ![0, v4.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x16384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S16384x64_S64x16384_1_0 : S16384x64.Transposes [1, 0] S64x16384
  inb_S64x2048_S64x2048_0_0 : ∀ a, (![0, 0] : Fin 2 → Nat) a + S64x2048.size a ≤ S64x2048.size a
  h_S64x2048 : 0 < S64x2048.numel
  inb_S1024x2048_S1024x2048_0_0 : ∀ a, (![0, 0] : Fin 2 → Nat) a + S1024x2048.size a ≤ S1024x2048.size a
  h_S1024x2048 : 0 < S1024x2048.numel
  h_S64x1024 : 0 < S64x1024.numel
  shapeCasts_S64x1024_S64x1024 : S64x1024.ShapeCasts S64x1024
  inb_S64x1024_S64x1024_0_0 : ∀ a, (![0, 0] : Fin 2 → Nat) a + S64x1024.size a ≤ S64x1024.size a
  transposes_S64x16384_S16384x64_1_0 : S64x16384.Transposes [1, 0] S16384x64
  dot_S64x2048_S1024x2048_S64x1024_1_1_0_0_n_n_wf : DotDims.WF S64x2048 S1024x2048 S64x1024 [1] [1] [0] [0] [] []
  hrank0 : 0 < grid0.rank
  k0_off1_inb : ∀ i : grid0.Coords, ∀ a, (k0_off1 i) a + S64x1024.size a ≤ S64x16384.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x2048.size a
  hwx0_0 : ∀ i : grid0.Coords, EltTy.bits .f32 = 32 ∨ (Rect.block (s := S16384x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x2048.size a ≤ S64x2048.size a
  hwx0_1 : ∀ i : grid0.Coords, EltTy.bits .f32 = 32 ∨ (Rect.block (s := S64x2048) S64x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x16384.size a ≤ S64x16384.size a
  hwx0_2 : ∀ i : grid0.Coords, EltTy.bits .f32 = 32 ∨ (Rect.block (s := S64x16384) S64x16384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x1024.size a ≤ S64x16384.size a
  hwx0_3 : ∀ i : grid0.Coords, EltTy.bits .f32 = 32 ∨ (Rect.block (s := S64x16384) S64x1024.size (cc0_transform_3 i) (hinb0_3 i)).WholeWords (EltTy.packing .f32)

variable [Facts₀]

def dot_S64x2048_S1024x2048_S64x1024_1_1_0_0_n_n : DotDims S64x2048 S1024x2048 S64x1024 where
  lhsContracting := [1]
  rhsContracting := [1]
  lhsNonContracting := [0]
  rhsNonContracting := [0]
  lhsBatch := []
  rhsBatch := []
  wf := dot_S64x2048_S1024x2048_S64x1024_1_1_0_0_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x16384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S64x2048 : Shape := ⟨2, ![64, 2048]⟩
abbrev S16384x64 : Shape := ⟨2, ![16384, 64]⟩
abbrev S2048x64 : Shape := ⟨2, ![2048, 64]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S64x2048, .f32⟩
  | .hbm, ⟨2, _⟩ => ⟨S16384x64, .f32⟩
  | .hbm, ⟨3, _⟩ => ⟨S2048x64, .f32⟩
  | .hbm, ⟨4, _⟩ => ⟨S16384x64, .f32⟩
  | .hbm, ⟨5, _⟩ => ⟨S16384x64, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  transposes_S64x2048_S2048x64_1_0 : S64x2048.Transposes [1, 0] S2048x64
  dot_S16384x2048_S2048x64_S16384x64_1_0_0_1_n_n_wf : DotDims.WF S16384x2048 S2048x64 S16384x64 [1] [0] [0] [1] [] []

variable [Facts₀]

def dot_S16384x2048_S2048x64_S16384x64_1_0_0_1_n_n : DotDims S16384x2048 S2048x64 S16384x64 where
  lhsContracting := [1]
  rhsContracting := [0]
  lhsNonContracting := [0]
  rhsNonContracting := [1]
  lhsBatch := []
  rhsBatch := []
  wf := dot_S16384x2048_S2048x64_S16384x64_1_0_0_1_n_n_wf

class Facts : Prop extends Facts₀ where

variable [Facts]
-- ==== Proof.GatingLogits.lean ====
/-
  The router's gating logits as ONE function of the three argument arrays, over the extended reals:

      logits x w nz (t, e) = (Σ_k x (t, k) · w (e, k)) + nz (t, e)        (t a token, e an expert, k a model coordinate)

  and the same numbers laid out expert-major, with the factors in the other order and the noise already transposed,

      expertMajor x w nt (e, t) = (Σ_k w (e, k) · x (t, k)) + nt (e, t).

  When `nt` is the transpose of `nz` the two agree entry by entry: the product of extended reals is commutative, term by
  term under the sum. Nothing else is needed — no distributivity, no cancelling — so the entries may be infinite and the
  equality still holds.
-/
import Idealize.ShloMosaic.PureOps.Ideal
import Idealize.ShloMosaic.Lib.ValueIdx

noncomputable section

open scoped BigOperators

namespace Cert.Gating

open Idealize.ShloMosaic Idealize.ShloMosaic.ValueIdx

/-- The logits, token-major: entry (t, e) is the inner product of token `t`'s row of `x` with expert `e`'s row of `w`, plus
    the noise at (t, e). -/
def logits (x : (⟨2, ![16384, 2048]⟩ : Shape).Idx → EReal) (w : (⟨2, ![64, 2048]⟩ : Shape).Idx → EReal)
    (nz : (⟨2, ![16384, 64]⟩ : Shape).Idx → EReal) : (⟨2, ![16384, 64]⟩ : Shape).Idx → EReal :=
  fun i => (∑ k : Fin 2048, x (ix2 (i 0) k) * w (ix2 (i 1) k)) + nz i

/-- The logits, expert-major, over an expert-major noise array `nt`: entry (e, t) is the inner product of expert `e`'s row
    of `w` with token `t`'s row of `x`, plus `nt` at (e, t). -/
def expertMajor (x : (⟨2, ![16384, 2048]⟩ : Shape).Idx → EReal) (w : (⟨2, ![64, 2048]⟩ : Shape).Idx → EReal)
    (nt : (⟨2, ![64, 16384]⟩ : Shape).Idx → EReal) : (⟨2, ![64, 16384]⟩ : Shape).Idx → EReal :=
  fun j => (∑ k : Fin 2048, w (ix2 (j 0) k) * x (ix2 (j 1) k)) + nt j

/-- With `nt` the transpose of `nz`, the expert-major entry (e, t) is the token-major entry (t, e): commute each product
    under the sum. -/
theorem expertMajor_apply (x : (⟨2, ![16384, 2048]⟩ : Shape).Idx → EReal) (w : (⟨2, ![64, 2048]⟩ : Shape).Idx → EReal)
    (nt : (⟨2, ![64, 16384]⟩ : Shape).Idx → EReal) (nz : (⟨2, ![16384, 64]⟩ : Shape).Idx → EReal)
    (hn : ∀ (e : Fin 64) (t : Fin 16384), nt (ix2 e t) = nz (ix2 t e)) (e : Fin 64) (t : Fin 16384) :
    expertMajor x w nt (ix2 e t) = logits x w nz (ix2 t e) := by
  unfold expertMajor logits
  exact congrArg₂ (· + ·) (Finset.sum_congr rfl fun k _ => mul_comm _ _) (hn e t)

end Cert.Gating

end
-- ==== Proof.ReferenceLogits.lean ====
/-
  The reference computes the token-major logits. Its three operations, read at an index (t, e): the transpose hands the
  product expert `e`'s row of `w` as a column; the product sums, over the model coordinate `k`, `x (t, k)` times that
  column's entry `w (e, k)`; the last operation adds the noise at (t, e). That is `Cert.Gating.logits` term by term.
-/
import proofs.«157203_g82952998355164_cont_9to1_m_1193_19_alg».proof.Proof.Gen.ReferenceIdeal.Read
import proofs.«157203_g82952998355164_cont_9to1_m_1193_19_alg».proof.Proof.GatingLogits

noncomputable section

open scoped BigOperators

namespace Cert.Gating.Reference

open Cert.ReferenceIdeal Cert.ReferenceIdeal.Read Idealize.ShloMosaic Idealize.ShloMosaic.ValueIdx

/-- The reference's result, as a function of its three arguments, is the token-major logits. -/
theorem val_eq_logits (x : (⟨S16384x2048, .f32⟩ : BufTy).Contents (Elt Ideal)) (w : (⟨S64x2048, .f32⟩ : BufTy).Contents (Elt Ideal))
    (nz : (⟨S16384x64, .f32⟩ : BufTy).Contents (Elt Ideal)) :
    val_main_v2 (F := Ideal) x w nz = Cert.Gating.logits x w nz := by
  funext i
  -- where the product reads its two operands, in coordinates: x at (t, k); the transposed w at (k, e), that is w at (e, k)
  have hl : ∀ k : Fin 2048, lidx_main_v1 i k = ix2 (i 0) k := fun k => funext fun a => Fin.ext (by
    match a with
    | ⟨0, _⟩ => rfl
    | ⟨1, _⟩ => rfl)
  have hr : ∀ k : Fin 2048, idx_main_v0 (ridx_main_v1 i k) = ix2 (i 1) k := fun k => funext fun a => Fin.ext (by
    match a with
    | ⟨0, _⟩ => rfl
    | ⟨1, _⟩ => rfl)
  rw [val_main_v2_apply, val_main_v1_apply]
  simp only [val_main_v0_apply, hl, hr]
  rfl

end Cert.Gating.Reference

end
-- ==== Proof.StoredBlock.lean ====
/-
  What one grid point leaves in the output's staging buffer, for any float instance. The body makes one store, of the
  whole [64, 1024] block, so the buffer ends at that store's value: the body's arithmetic applied to the whole `w` block,
  the whole `x` block, and the [64, 1024] window of the noise buffer that starts at the column offset the body computes
  from the grid position.
-/
import proofs.«157203_g82952998355164_cont_9to1_m_1193_19_alg».proof.Proof.Gen.KernelIdeal.Frame
import Idealize.ShloMosaic.Lib.Pipeline.Value

noncomputable section

namespace Cert.Gating.Kernel

open Cert.KernelIdeal Cert.KernelIdeal.Gen Idealize.ShloMosaic Idealize.ShloMosaic.TcCoe Idealize.SL.Sem

variable {F : FTy → Type} [FloatOps F]

/-- The zero offsets, as the printed rectangles spell them. -/
theorem zero_offsets : (![0, 0] : Fin 2 → Nat) = fun _ => 0 := funext fun a => by fin_cases a <;> rfl

/-- The output buffer after the body: the arithmetic of the three loads, the first two whole buffers, the third the
    noise buffer's window at the computed offsets. -/
theorem stored_block (c : Dev nD) (i : grid0.Coords) (a1 : Memref sig .tc .vmem S1024x2048 .f32) (h1 : a1.IsWhole)
    (a2 : Memref sig .tc .vmem S64x2048 .f32) (h2 : a2.IsWhole) (a3 : Memref sig .tc .vmem S64x16384 .f32) (h3 : a3.IsWhole)
    (a4 : Memref sig .tc .vmem S64x1024 .f32) (h4 : a4.IsWhole)
    (xb : Vec F S1024x2048 .f32) (wb : Vec F S64x2048 .f32) (nt : Vec F S64x16384 .f32) :
    out0_A_3 c i a1 h1 a2 h2 a3 h3 a4 h4 xb wb nt
      = k0_pay1 wb xb (View.ld nt (Rect.unit (s := S64x16384) (k0_off1 i) S64x1024.size (Gen.k0_off1_inb i))) := by
  unfold out0_A_3
  rw [View.read_writes_eq_canon _ _ _ (cover0_A_3 c i a1 h1 a2 h2 a3 h3 a4 h4 xb wb nt)]
  unfold kernelRun0_A
  dsimp only
  rw [View.canon_unit_zero zero_offsets]
  simp only [View.readAt_eq_ld, h1.read_unread, h2.read_unread, h3.read_unread, View.ld_unit_zero (S := S64x2048) zero_offsets,
    View.ld_unit_zero (S := S1024x2048) zero_offsets]

end Cert.Gating.Kernel

end
-- ==== Proof.BlockPayload.lean ====
/-
  What the kernel's body stores, read at one entry. The body multiplies the whole [64, 2048] block of `w` with a
  [1024, 2048] block of `x`, contracting the model coordinate of both, into a zero accumulator, and adds a [64, 1024]
  block of noise. Over the extended reals the entry (e, q) of what it stores is therefore

      (Σ_k w (e, k) · x (q, k)) + noise (e, q):

  the matrix product into zero is the plain sum over the one contracted coordinate, the shape cast of the noise block to
  its own shape changes nothing, and the addition is entrywise.
-/
import proofs.«157203_g82952998355164_cont_9to1_m_1193_19_alg».proof.Proof.Gen.KernelIdeal.Skeleton
import Idealize.ShloMosaic.PureOps.Ideal.Laws
import Idealize.ShloMosaic.Lib.ValueIdx
import Idealize.ShloMosaic.Lib.Pipeline.Value

noncomputable section

open scoped BigOperators

namespace Cert.Gating.Block

open Cert.KernelIdeal Cert.KernelIdeal.Gen Idealize.ShloMosaic Idealize.ShloMosaic.ValueIdx

/-! ## Where the product reads its operands

At output entry `j` and contracted index `r`, the left operand is read at (j 0, r) and the right at (j 1, r): both operands
contract their second axis and keep their first. -/

theorem lhs_axis0 (j : S64x1024.Idx) (r : dot_S64x2048_S1024x2048_S64x1024_1_1_0_0_n_n.contr.Idx) :
    (dot_S64x2048_S1024x2048_S64x1024_1_1_0_0_n_n.lhsIdx j r 0).val = (j 0).val := by
  unfold DotDims.lhsIdx
  rw [dif_neg (show ¬(0 : Fin S64x2048.rank) ∈ dot_S64x2048_S1024x2048_S64x1024_1_1_0_0_n_n.lhsBatch by decide),
    dif_pos (show (0 : Fin S64x2048.rank) ∈ dot_S64x2048_S1024x2048_S64x1024_1_1_0_0_n_n.lhsNonContracting by decide)]
  rfl

theorem lhs_axis1 (j : S64x1024.Idx) (r : dot_S64x2048_S1024x2048_S64x1024_1_1_0_0_n_n.contr.Idx) :
    (dot_S64x2048_S1024x2048_S64x1024_1_1_0_0_n_n.lhsIdx j r 1).val = (r ⟨0, by decide⟩).val :=
  dot_S64x2048_S1024x2048_S64x1024_1_1_0_0_n_n.lhsIdx_val_of_single rfl j r

theorem rhs_axis0 (j : S64x1024.Idx) (r : dot_S64x2048_S1024x2048_S64x1024_1_1_0_0_n_n.contr.Idx) :
    (dot_S64x2048_S1024x2048_S64x1024_1_1_0_0_n_n.rhsIdx j r 0).val = (j 1).val := by
  unfold DotDims.rhsIdx
  rw [dif_neg (show ¬(0 : Fin S1024x2048.rank) ∈ dot_S64x2048_S1024x2048_S64x1024_1_1_0_0_n_n.rhsBatch by decide),
    dif_pos (show (0 : Fin S1024x2048.rank) ∈ dot_S64x2048_S1024x2048_S64x1024_1_1_0_0_n_n.rhsNonContracting by decide)]
  rfl

theorem rhs_axis1 (j : S64x1024.Idx) (r : dot_S64x2048_S1024x2048_S64x1024_1_1_0_0_n_n.contr.Idx) :
    (dot_S64x2048_S1024x2048_S64x1024_1_1_0_0_n_n.rhsIdx j r 1).val = (r ⟨0, by decide⟩).val :=
  dot_S64x2048_S1024x2048_S64x1024_1_1_0_0_n_n.rhsIdx_val_of_single rfl j r

/-! ## The stored block at an entry -/

/-- The stored block at entry (e, q): the inner product of row `e` of the `w` block with row `q` of the `x` block, plus the
    noise block's entry (e, q). -/
theorem payload_apply (wb : Vec Ideal S64x2048 .f32) (xb : Vec Ideal S1024x2048 .f32) (nb : Vec Ideal S64x1024 .f32)
    (e : Fin 64) (q : Fin 1024) :
    k0_pay1 (F := Ideal) wb xb nb (ix2 e q) = (∑ k : Fin 2048, wb (ix2 e k) * xb (ix2 q k)) + nb (ix2 e q) := by
  unfold k0_pay1
  refine (addf_apply _ _ _).trans ?_
  refine congrArg₂ (· + ·) ?_ ?_
  · refine (Ideal.matmul_constant_zero_apply dot_S64x2048_S1024x2048_S64x1024_1_1_0_0_n_n none wb xb (ix2 e q)).trans ?_
    rw [← Equiv.sum_comp (contrEquiv1 dot_S64x2048_S1024x2048_S64x1024_1_1_0_0_n_n 2048 rfl rfl).symm]
    refine Finset.sum_congr rfl fun k _ => ?_
    have hk := contrEquiv1_symm_val dot_S64x2048_S1024x2048_S64x1024_1_1_0_0_n_n 2048 rfl rfl k
    have el : dot_S64x2048_S1024x2048_S64x1024_1_1_0_0_n_n.lhsIdx (ix2 e q)
        ((contrEquiv1 dot_S64x2048_S1024x2048_S64x1024_1_1_0_0_n_n 2048 rfl rfl).symm k) = ix2 e k :=
      funext fun a => Fin.ext (by
        match a with
        | ⟨0, _⟩ => exact lhs_axis0 _ _
        | ⟨1, _⟩ => exact (lhs_axis1 _ _).trans hk)
    have er : dot_S64x2048_S1024x2048_S64x1024_1_1_0_0_n_n.rhsIdx (ix2 e q)
        ((contrEquiv1 dot_S64x2048_S1024x2048_S64x1024_1_1_0_0_n_n 2048 rfl rfl).symm k) = ix2 q k :=
      funext fun a => Fin.ext (by
        match a with
        | ⟨0, _⟩ => exact rhs_axis0 _ _
        | ⟨1, _⟩ => exact (rhs_axis1 _ _).trans hk)
    rw [el, er]
  · rw [shapeCast_self]

end Cert.Gating.Block

end
-- ==== Proof.ExpertMajorArray.lean ====
/-
  From blocks to the array: what the region leaves in its output array, as one function of the arrays it finds.

  The grid has 16 points. At point `t` the pipeline stages rows 1024·t … 1024·t + 1023 of `x`, all of `w`, all of the
  expert-major noise, and the body reads of the noise the columns 1024·t … 1024·t + 1023; what it stores is written back as
  columns 1024·t … 1024·t + 1023 of the [64, 16384] output. So entry (e, 1024·t + q) of the output ends at

      (Σ_k w (e, k) · x (1024·t + q, k)) + noiseT (e, 1024·t + q),

  which is one function of the entry's own coordinates, whatever `t` is; and the 16 column blocks cover the array.
-/
import proofs.«157203_g82952998355164_cont_9to1_m_1193_19_alg».proof.Proof.StoredBlock
import proofs.«157203_g82952998355164_cont_9to1_m_1193_19_alg».proof.Proof.BlockPayload
import proofs.«157203_g82952998355164_cont_9to1_m_1193_19_alg».proof.Proof.GatingLogits
import Idealize.ShloMosaic.Lib.ValueIdx
import Idealize.ShloMosaic.Lib.Pipeline.Value

noncomputable section

open scoped BigOperators

namespace Cert.Gating.Kernel

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The expert-major logits of the arrays the region finds: entry (e, s) is the inner product of row `e` of `w` with row
    `s` of `x`, plus the expert-major noise at (e, s). -/
def foundLogits (c : Dev nD) : S64x16384.Idx → EReal :=
  Cert.Gating.expertMajor (V m c main_arg0) (V m c main_arg1) (V m c main_v0)

/-- The printed index maps and the body's column offset, decided over the 16 points: the `x` block's row index is the
    output block's column index, every other block index is zero, and the offset is 1024 times that index. -/
theorem point_facts : ∀ t : Fin cfg0.N,
    win0_0.index t (0 : Fin 2) = win0_3.index t (1 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) < 16
    ∧ k0_off1 (grid0.coords t) (0 : Fin 2) = 0 ∧ k0_off1 (grid0.coords t) (1 : Fin 2) = win0_3.index t (1 : Fin 2) * 1024 :=
  (by decide +kernel : ∀ t : Fin grid0.N, _)

/-- Every column block of the output is some point's. -/
theorem point_of_block : ∀ b : Fin 16, ∃ t : Fin cfg0.N, win0_3.index t = ![0, b.val] :=
  (by decide +kernel : ∀ b : Fin 16, ∃ t : Fin grid0.N, win0_3.index t = ![0, b.val])

/-! ## The three block reads, at the entry the output's block places -/

/-- The `w` block is all of `w`: its row `e` is row `e` of the array, which is the row of the output entry. -/
theorem read_w (c : Dev nD) (t : Fin cfg0.N) (e : Fin 64) (q : Fin 1024) (k : Fin 2048) :
    iblk m c 1 t (ix2 e k) = V m c main_arg1 (ix2 ((((cfg0.win 3).blk t).view.emb (ix2 e q)) 0) k) := by
  obtain ⟨-, -, e10, e11, -, -, e30, -, -, -⟩ := point_facts t
  show V m c main_arg1 (((cfg0.win 1).blk t).view.emb (ix2 e k)) = _
  refine congrArg (V m c main_arg1) (funext fun a => Fin.ext ?_)
  match a with
  | ⟨0, _⟩ => show win0_1.index t (0 : Fin 2) * 64 + 1 * e.val = win0_3.index t (0 : Fin 2) * 64 + 1 * e.val; omega
  | ⟨1, _⟩ => show win0_1.index t (1 : Fin 2) * 2048 + 1 * k.val = k.val; omega

/-- Row `q` of the `x` block at point `t` is row 1024·t + q of `x`: the column of the output entry. -/
theorem read_x (c : Dev nD) (t : Fin cfg0.N) (e : Fin 64) (q : Fin 1024) (k : Fin 2048) :
    iblk m c 0 t (ix2 q k) = V m c main_arg0 (ix2 ((((cfg0.win 3).blk t).view.emb (ix2 e q)) 1) k) := by
  obtain ⟨e00, e01, -, -, -, -, -, -, -, -⟩ := point_facts t
  show V m c main_arg0 (((cfg0.win 0).blk t).view.emb (ix2 q k)) = _
  refine congrArg (V m c main_arg0) (funext fun a => Fin.ext ?_)
  match a with
  | ⟨0, _⟩ => show win0_0.index t (0 : Fin 2) * 1024 + 1 * q.val = win0_3.index t (1 : Fin 2) * 1024 + 1 * q.val; omega
  | ⟨1, _⟩ => show win0_0.index t (1 : Fin 2) * 2048 + 1 * k.val = k.val; omega

/-- The noise window the body loads at point `t`, at (e, q), is the expert-major noise at the output entry. -/
theorem read_noise (c : Dev nD) (t : Fin cfg0.N) (e : Fin 64) (q : Fin 1024) :
    View.ld (iblk m c 2 t) (Rect.unit (s := S64x16384) (k0_off1 (grid0.coords t)) S64x1024.size (Gen.k0_off1_inb (grid0.coords t))) (ix2 e q)
      = V m c main_v0 (((cfg0.win 3).blk t).view.emb (ix2 e q)) := by
  obtain ⟨-, -, -, -, e20, e21, e30, -, o0, o1⟩ := point_facts t
  show V m c main_v0 (((cfg0.win 2).blk t).view.emb
      ((Rect.unit (s := S64x16384) (k0_off1 (grid0.coords t)) S64x1024.size (Gen.k0_off1_inb (grid0.coords t))).idx (ix2 e q))) = _
  refine congrArg (V m c main_v0) (funext fun a => Fin.ext ?_)
  match a with
  | ⟨0, _⟩ =>
    show win0_2.index t (0 : Fin 2) * 64 + 1 * (k0_off1 (grid0.coords t) (0 : Fin 2) + 1 * e.val) = win0_3.index t (0 : Fin 2) * 64 + 1 * e.val
    omega
  | ⟨1, _⟩ =>
    show win0_2.index t (1 : Fin 2) * 16384 + 1 * (k0_off1 (grid0.coords t) (1 : Fin 2) + 1 * q.val) = win0_3.index t (1 : Fin 2) * 1024 + 1 * q.val
    omega

/-! ## What a point writes back, the cover, the array -/

/-- Point `t` writes back block `t` of the expert-major logits. -/
theorem flushed_eq (c : Dev nD) (t : Fin cfg0.N) :
    (dats m 0 c).flushed 3 t = ((cfg0.win 3).blk t).view.read (Elt Ideal) (foundLogits m c) := by
  show (cfg0.win 3).cut (grid0.coords t) ((dats m 0 c).after 3 t) = _
  rw [after0_3]
  unfold outsAt0
  refine (stored_block c (grid0.coords t) (ms0_0 t) (hs0_0 t) (ms0_1 t) (hs0_1 t) (ms0_2 t) (hs0_2 t) (ms0_3 t) (hs0_3 t)
    (iblk m c 0 t) (iblk m c 1 t) (iblk m c 2 t)).trans ?_
  funext j
  obtain ⟨e, q, rfl⟩ : ∃ (e : Fin 64) (q : Fin 1024), j = ix2 e q := ⟨j 0, j 1, eq_ix2 j⟩
  refine (Cert.Gating.Block.payload_apply _ _ _ e q).trans ?_
  show _ = foundLogits m c (((cfg0.win 3).blk t).view.emb (ix2 e q))
  unfold foundLogits Cert.Gating.expertMajor
  refine congrArg₂ (· + ·) (Finset.sum_congr rfl fun k _ => ?_) (read_noise m c t e q)
  rw [read_w m c t e q k, read_x m c t e q k]

/-- An index is in point `t`'s output block iff each coordinate is in the block's range on its axis. -/
theorem mem_block (t : Fin cfg0.N) (i : S64x16384.Idx) :
    i ∈ ((cfg0.win 3).blk t).view.set ↔ ∀ a : Fin 2, win0_3.index t a * S64x1024.size a ≤ (i a).val ∧ (i a).val < win0_3.index t a * S64x1024.size a + S64x1024.size a := by
  show i ∈ ((View.whole main_v1).slice (win0_3.rect t)).set ↔ _
  rw [View.set_slice_whole, Rect.mem_set_unit]
  exact Iff.rfl

/-- Every entry (e, s) of the output is in the block of the point whose column index is s / 1024. -/
theorem covered (i : S64x16384.Idx) :
    ∃ t : Fin cfg0.N, (cfg0.win 3).flush t = true ∧ i ∈ ((cfg0.win 3).blk t).view.set := by
  have hi0 : (i 0).val < 64 := (i 0).isLt
  have hi1 : (i 1).val < 16384 := (i 1).isLt
  obtain ⟨t, ht⟩ := point_of_block ⟨(i 1).val / 1024, by omega⟩
  have q0 : win0_3.index t (0 : Fin 2) = 0 := congrFun ht 0
  have q1 : win0_3.index t (1 : Fin 2) = (i 1).val / 1024 := congrFun ht 1
  refine ⟨t, flush0_3 t, ?_⟩
  rw [mem_block]
  intro a
  match a with
  | ⟨0, _⟩ => show win0_3.index t (0 : Fin 2) * 64 ≤ (i 0).val ∧ (i 0).val < win0_3.index t (0 : Fin 2) * 64 + 64; omega
  | ⟨1, _⟩ => show win0_3.index t (1 : Fin 2) * 1024 ≤ (i 1).val ∧ (i 1).val < win0_3.index t (1 : Fin 2) * 1024 + 1024; omega

/-- The output array after the region: the expert-major logits of the arrays the region found. -/
theorem array_eq (c : Dev nD) : (dats m 0 c).arrAt 3 cfg0.N = foundLogits m c :=
  (dats m 0 c).arrAt_eq_of_cover 3 (foundLogits m c) (fun t _ => flushed_eq m c t) covered

end Cert.Gating.Kernel

end
-- ==== Proof.KernelLogits.lean ====
/-
  The kernel's program, read as a whole. Before the region one host operation transposes the noise to expert-major; the
  region leaves the expert-major logits of what it found (the blocks-to-array module); after it one host operation
  transposes that array back to token-major. Reading both transposes at an index, and the two untouched arguments as
  launched, the result array ends at the token-major logits of the three arguments.
-/
import proofs.«157203_g82952998355164_cont_9to1_m_1193_19_alg».proof.Proof.ExpertMajorArray
import Idealize.ShloMosaic.Lib.StableHlo.Run

noncomputable section

open scoped BigOperators

namespace Cert.Gating.Kernel

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The expert-major noise the region finds is the transpose of the noise argument (the one host operation before it). -/
theorem found_noise (c : Dev nD) :
    (V m c main_v0 : S64x16384.Idx → EReal)
      = transpose S64x16384 [1, 0] (m ((c : Thread nD τ).loc main_arg2)) transposes_S16384x64_S64x16384_1_0 := by
  show StableHlo.after hostOps0 (fun b => m (c, b)) (Proc.devRef .tc main_v0) = _
  after_results

/-- At (e, t) it is the noise argument at (t, e). -/
theorem found_noise_apply (c : Dev nD) (e : Fin 64) (t : Fin 16384) :
    (V m c main_v0 : S64x16384.Idx → EReal) (ix2 e t)
      = (m ((c : Thread nD τ).loc main_arg2) : S16384x64.Idx → EReal) (ix2 t e) := by
  rw [found_noise]
  exact transpose_apply [1, 0] _ transposes_S16384x64_S64x16384_1_0 (ix2 e t) (ix2 t e) (fun b => match b with
    | ⟨0, _⟩ => rfl
    | ⟨1, _⟩ => rfl)

/-- The expert-major logits the region leaves, at (e, t), are the token-major logits of the three arguments at (t, e):
    `x` and `w` reach the region as launched, the noise transposed, and the products commute. -/
theorem found_logits_apply (c : Dev nD) (e : Fin 64) (t : Fin 16384) :
    foundLogits m c (ix2 e t)
      = Cert.Gating.logits (m ((c : Thread nD τ).loc main_arg0)) (m ((c : Thread nD τ).loc main_arg1))
          (m ((c : Thread nD τ).loc main_arg2)) (ix2 t e) := by
  unfold foundLogits
  refine (Cert.Gating.expertMajor_apply (V m c main_arg0) (V m c main_arg1) (V m c main_v0)
    (m ((c : Thread nD τ).loc main_arg2)) (found_noise_apply m c) e t).trans ?_
  rw [V_main_arg0 m c, V_main_arg1 m c]

/-- The result buffer after the host operation that follows the region: the transpose of the region's output array. -/
theorem result_eq_transpose (c : Dev nD) :
    (Pipeline.afterTail₀ cfgs (dats m) 0 (V0 m) [hostOps1] c main_v2 : S16384x64.Idx → EReal)
      = transpose S16384x64 [1, 0] ((dats m 0 c).arrAt 3 cfg0.N) transposes_S64x16384_S16384x64_1_0 := by
  unfold Pipeline.afterTail₀
  show StableHlo.after hostOps1 _ (Proc.devRef .tc main_v2) = _
  after_results
  exact congrArg (fun y => transpose S16384x64 [1, 0] y transposes_S64x16384_S16384x64_1_0)
    (Pipeline.withArrays_arr spec0 launch0.win.arr_inj c _ _ 3)

/-- So the result buffer ends at the token-major logits of the three arguments. -/
theorem result_eq_logits (c : Dev nD) :
    (Pipeline.afterTail₀ cfgs (dats m) 0 (V0 m) [hostOps1] c main_v2 : S16384x64.Idx → EReal)
      = Cert.Gating.logits (m ((c : Thread nD τ).loc main_arg0)) (m ((c : Thread nD τ).loc main_arg1))
          (m ((c : Thread nD τ).loc main_arg2)) := by
  rw [result_eq_transpose, array_eq]
  funext i
  obtain ⟨t, e, rfl⟩ : ∃ (t : Fin 16384) (e : Fin 64), i = ix2 t e := ⟨i 0, i 1, eq_ix2 i⟩
  refine (transpose_apply [1, 0] _ transposes_S64x16384_S16384x64_1_0 (ix2 t e) (ix2 e t) (fun b => match b with
    | ⟨0, _⟩ => rfl
    | ⟨1, _⟩ => rfl)).trans ?_
  exact found_logits_apply m c e t

/-- The kernel's run, read: every weakly fair execution terminates with the result buffer at the token-major logits of
    the arguments, and the arguments unchanged. -/
theorem run : θ_run defs (onTc (τ := τ) (main (F := Ideal))) ⟨m, fun _ => 0, ρ⟩ fun r => ∀ c : Dev nD,
      r.2.mem ((c.tc : Thread nD τ).loc main_v2)
        = Cert.Gating.logits (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v2 (Pipeline.mem_restRefs_of main_v2 (by decide) (by decide))).trans (result_eq_logits m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.Gating.Kernel

end
-- ==== Proof.lean ====
/-
  The router's gating logits: a Pallas kernel against its jnp reference, equal over the extended reals.

  The reference computes, token-major, logits (t, e) = (Σ_k x (t, k) · w (e, k)) + noise (t, e): a transpose of `w`, one
  matrix product, one addition. The kernel works expert-major: it transposes the noise, and on a grid of 16 points
  multiplies all of `w` with a block of 1024 rows of `x` (contracting the model coordinate of both, into a zero
  accumulator), adds the matching 1024 columns of the transposed noise, and writes the 1024 columns of a [64, 16384]
  output, which a last transpose turns token-major. Entry (e, t) of that output is (Σ_k w (e, k) · x (t, k)) + noise (t, e):
  the same sum with each product's factors exchanged. The product of extended reals is commutative, so the two results
  agree at every entry for every input, finite or not; the precondition is never opened.

  The modules: the two arrangements of the logits and the law joining them (GatingLogits); the reference read as the
  token-major logits (ReferenceLogits); the kernel body's stored value at one entry (BlockPayload) and what a grid point
  leaves in the output's staging buffer (StoredBlock); the output array as one function of what the region finds
  (ExpertMajorArray); the two host transposes and the kernel's run (KernelLogits). The three frames are the generated
  ones; the kernel's idealization rewrote nothing, so that claim is trivial.
-/
import proofs.«157203_g82952998355164_cont_9to1_m_1193_19_alg».proof.Defs
import proofs.«157203_g82952998355164_cont_9to1_m_1193_19_alg».proof.Proof.Gen.Kernel
import proofs.«157203_g82952998355164_cont_9to1_m_1193_19_alg».proof.Proof.Gen.Kernel.Skeleton
import proofs.«157203_g82952998355164_cont_9to1_m_1193_19_alg».proof.Proof.Gen.Kernel.Launch
import proofs.«157203_g82952998355164_cont_9to1_m_1193_19_alg».proof.Proof.Gen.Kernel.Points
import proofs.«157203_g82952998355164_cont_9to1_m_1193_19_alg».proof.Proof.Gen.Kernel.Frame
import proofs.«157203_g82952998355164_cont_9to1_m_1193_19_alg».proof.Proof.Gen.KernelIdeal
import proofs.«157203_g82952998355164_cont_9to1_m_1193_19_alg».proof.Proof.Gen.KernelIdeal.Skeleton
import proofs.«157203_g82952998355164_cont_9to1_m_1193_19_alg».proof.Proof.Gen.KernelIdeal.Launch
import proofs.«157203_g82952998355164_cont_9to1_m_1193_19_alg».proof.Proof.Gen.KernelIdeal.Points
import proofs.«157203_g82952998355164_cont_9to1_m_1193_19_alg».proof.Proof.Gen.KernelIdeal.Frame
import proofs.«157203_g82952998355164_cont_9to1_m_1193_19_alg».proof.Proof.Gen.ReferenceIdeal
import proofs.«157203_g82952998355164_cont_9to1_m_1193_19_alg».proof.Proof.Gen.Pre_finite_inputs
import proofs.«157203_g82952998355164_cont_9to1_m_1193_19_alg».proof.Proof.Gen.ReferenceIdeal.Run
import proofs.«157203_g82952998355164_cont_9to1_m_1193_19_alg».proof.Proof.Gen.ReferenceIdeal.Read
import proofs.«157203_g82952998355164_cont_9to1_m_1193_19_alg».proof.Proof.ReferenceLogits
import proofs.«157203_g82952998355164_cont_9to1_m_1193_19_alg».proof.Proof.KernelLogits
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments unchanged: its run, with the result's value dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From memories agreeing on `x`, `w` and the noise, the idealized kernel and the idealized reference both end with the
    result at the token-major logits of those three arrays: the kernel by its run read through its two transposes, the
    reference by its three operations read at an index. -/
theorem algebraic : Cert.algebraic_KernelIdeal_ReferenceIdeal := by
  intro m ρ m' ρ' _ hagree
  refine ⟨fun c => Cert.Gating.logits (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.Gating.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.Gating.Reference.val_eq_logits, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
